-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S128x1024 : Shape := ⟨2, ![128, 1024]⟩
abbrev S2048x128 : Shape := ⟨2, ![2048, 128]⟩
abbrev S128 : Shape := ⟨1, ![128]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32768x1024 .f32) (main_arg1 : FVec F S32768x1024 .f32) (main_arg2 : FVec F S128x1024 .f32) (main_arg3 : FVec F S2048x128 .f32) (main_arg4 : FVec F S128 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_arg4 main_v13 main_v16
-- ==== Kernel.lean ====
abbrev S32768x1024 : Shape := ⟨2, ![32768, 1024]⟩
abbrev S128x1024 : Shape := ⟨2, ![128, 1024]⟩
abbrev S2048x128 : Shape := ⟨2, ![2048, 128]⟩
abbrev S128 : Shape := ⟨1, ![128]⟩
abbrev S32768x128 : Shape := ⟨2, ![32768, 128]⟩
abbrev S2x8x1024 : Shape := ⟨3, ![2, 8, 1024]⟩
abbrev S1024x1024 : Shape := ⟨2, ![1024, 1024]⟩
abbrev S1024x128 : Shape := ⟨2, ![1024, 128]⟩
abbrev S1x8x1024 : Shape := ⟨3, ![1, 8, 1024]⟩
abbrev S1024 : Shape := ⟨1, ![1024]⟩
abbrev S1x1024 : Shape := ⟨2, ![1, 1024]⟩
abbrev S1x1x1024 : Shape := ⟨3, ![1, 1, 1024]⟩
abbrev S_ : Shape := ⟨0, ![]⟩
abbrev S1x128 : Shape := ⟨2, ![1, 128]⟩
abbrev S8192x128 : Shape := ⟨2, ![8192, 128]⟩

abbrev nBuf : Space → Nat
  | .hbm => 26
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S128x1024, .f32⟩
  | .hbm, ⟨3, _⟩ => ⟨S2048x128, .f32⟩
  | .hbm, ⟨4, _⟩ => ⟨S128, .f32⟩
  | .hbm, ⟨5, _⟩ => ⟨S32768x128, .bf16⟩
  | .hbm, ⟨6, _⟩ => ⟨S2x8x1024, .f32⟩
  | .hbm, ⟨7, _⟩ => ⟨S1x1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S1x128, .f32⟩
  | .hbm, ⟨25, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S2048x128, .f32⟩
  | .local _ .vmem, ⟨5, _⟩ => ⟨S1024x128, .bf16⟩
  | .local _ .vmem, ⟨6, _⟩ => ⟨S1024x128, .bf16⟩
  | .local _ .vmem, ⟨7, _⟩ => ⟨S1x8x1024, .f32⟩
  | .local _ .vmem, ⟨8, _⟩ => ⟨S1x8x1024, .f32⟩
  | .local _ .vmem, ⟨9, _⟩ => ⟨S8192x128, .bf16⟩
  | .local _ .vmem, ⟨10, _⟩ => ⟨S8192x128, .bf16⟩
  | .local _ .vmem, ⟨11, _⟩ => ⟨S1x128, .f32⟩
  | .local _ .vmem, ⟨12, _⟩ => ⟨S8192x128, .f32⟩
  | .local _ .vmem, ⟨13, _⟩ => ⟨S8192x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x8x1024_S1x8x1024_0_0_0 : ∀ a, (![0, 0, 0] : Fin 3 → Nat) a + S1x8x1024.size a ≤ S1x8x1024.size a
  h_S1x8x1024 : 0 < S1x8x1024.numel
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  inb_S1x8x1024_S1x1x1024_0_0_0 : ∀ a, (![0, 0, 0] : Fin 3 → Nat) a + S1x1x1024.size a ≤ S1x8x1024.size a
  h_S1x1x1024 : 0 < S1x1x1024.numel
  shapeCasts_S1x1x1024_S1x1x1024 : S1x1x1024.ShapeCasts S1x1x1024
  shapeCasts_S1x1024_S1x1x1024 : S1x1024.ShapeCasts S1x1x1024
  inb_S2048x128_S2048x128_0_0 : ∀ a, (![0, 0] : Fin 2 → Nat) a + S2048x128.size a ≤ S2048x128.size a
  h_S2048x128 : 0 < S2048x128.numel
  slices_S2048x128_o0_0_S1024x128 : S2048x128.Slices ![0, 0] S1024x128
  slices_S2048x128_o1024_0_S1024x128 : S2048x128.Slices ![1024, 0] S1024x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  slices_S2x8x1024_S1x1x1024_0_0_0 : S2x8x1024.Slices ![0, 0, 0] S1x1x1024
  shapeCasts_S1x1x1024_S1024 : S1x1x1024.ShapeCasts S1024
  slices_S2x8x1024_S1x1x1024_1_0_0 : S2x8x1024.Slices ![1, 0, 0] S1x1x1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  reducesTo_S128x1024_S128_d1 : S128x1024.ReducesTo [1] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .f32 = 32 ∨ (Rect.block (s := S2048x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S32768x128.size a
  hwx0_3 : ∀ i : grid0.Coords, EltTy.bits .bf16 = 32 ∨ (Rect.block (s := S32768x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x1024.size a ≤ S2x8x1024.size a
  hwx0_4 : ∀ i : grid0.Coords, EltTy.bits .f32 = 32 ∨ (Rect.block (s := S2x8x1024) S1x8x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S32768x128.size a
  hwx1_0 : ∀ i : grid1.Coords, EltTy.bits .bf16 = 32 ∨ (Rect.block (s := S32768x128) S8192x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S32768x128.size a
  hwx1_2 : ∀ i : grid1.Coords, EltTy.bits .f32 = 32 ∨ (Rect.block (s := S32768x128) S8192x128.size (cc1_transform_2 i) (hinb1_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32768x1024 : Shape := ⟨2, ![32768, 1024]⟩
abbrev S128x1024 : Shape := ⟨2, ![128, 1024]⟩
abbrev S2048x128 : Shape := ⟨2, ![2048, 128]⟩
abbrev S128 : Shape := ⟨1, ![128]⟩
abbrev S32768x2048 : Shape := ⟨2, ![32768, 2048]⟩
abbrev S32768x128 : Shape := ⟨2, ![32768, 128]⟩
abbrev S_ : Shape := ⟨0, ![]⟩
abbrev S1024 : Shape := ⟨1, ![1024]⟩
abbrev S1x1024 : Shape := ⟨2, ![1, 1024]⟩
abbrev S1x128 : Shape := ⟨2, ![1, 128]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S128x1024, .f32⟩
  | .hbm, ⟨3, _⟩ => ⟨S2048x128, .f32⟩
  | .hbm, ⟨4, _⟩ => ⟨S128, .f32⟩
  | .hbm, ⟨5, _⟩ => ⟨S32768x2048, .f32⟩
  | .hbm, ⟨6, _⟩ => ⟨S32768x128, .f32⟩
  | .hbm, ⟨7, _⟩ => ⟨S32768x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S32768x128, .f32⟩
  | .hbm, ⟨23, _⟩ => ⟨S32768x128, .f32⟩
  | .hbm, ⟨24, _⟩ => ⟨S1x128, .f32⟩
  | .hbm, ⟨25, _⟩ => ⟨S32768x128, .f32⟩
  | .hbm, ⟨26, _⟩ => ⟨S32768x128, .f32⟩
  | .hbm, ⟨27, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  concatenates_S32768x1024_S32768x1024_S32768x2048_d1 : Shape.Concatenates [S32768x1024, S32768x1024] S32768x2048 1
  reducesTo_S32768x1024_S1024_d0 : S32768x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  reducesTo_S128x1024_S128_d1 : S128x1024.ReducesTo [1] S128
  bcast_S_S128 : S_.BroadcastsInDim S128 (![] : Fin 0 → Fin S128.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  dot_S32768x2048_S2048x128_S32768x128_1_0_0_1_n_n_wf : DotDims.WF S32768x2048 S2048x128 S32768x128 [1] [0] [0] [1] [] []

variable [Facts₀]

def dot_S32768x2048_S2048x128_S32768x128_1_0_0_1_n_n : DotDims S32768x2048 S2048x128 S32768x128 where
  lhsContracting := [1]
  rhsContracting := [0]
  lhsNonContracting := [0]
  rhsNonContracting := [1]
  lhsBatch := []
  rhsBatch := []
  wf := dot_S32768x2048_S2048x128_S32768x128_1_0_0_1_n_n_wf

class Facts : Prop extends Facts₀ where

variable [Facts]
-- ==== Proof.Spec.lean ====
/-
  The specification: the one function of the five argument arrays that both programs compute at the extended reals.

  With e1, e2 : [32768, 1024], W : [128, 1024], V : [2048, 128], b : [128], the result at row r and column c is

      tanh ( ff r c + (diag c + b c) )

  where  ff r c  = Σ_{k<1024} e1[r,k]·V[k,c]  +  Σ_{k<1024} e2[r,k]·V[1024+k,c]   (the row of [e1 | e2] against V),
         diag c  = ( Σ_{j<1024} W[c,j] · ((half 0 j + half 1 j) · 1/32768) ) · 1/1024,
         half h j = Σ_{s<16} Σ_{r<1024} e1[1024·(16h+s)+r, j] · e2[1024·(16h+s)+r, j]
  (the column sums of e1·e2 over the upper and the lower half of the rows, each taken sixteen blocks of 1024 rows
  at a time).  Also here: the three float constants the programs spell, as the reals their patterns denote.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The constants -/

/-- The pattern of 2⁻¹⁵ denotes the real 1/32768. -/
theorem ofBits_inv32768 : Ideal.ofBits .f32 0x38000000#32 = ((1 / 32768 : ℝ) : EReal) := by
  simp [Ideal.ofBits, Ideal.ieee, -EReal.coe_mul]; norm_num

/-- The pattern of 32768.0 denotes the real 32768. -/
theorem ofBits_32768 : Ideal.ofBits .f32 0x47000000#32 = ((32768 : ℝ) : EReal) := by
  simp [Ideal.ofBits, Ideal.ieee, -EReal.coe_mul]; norm_num

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-! ## Rows -/

/-- Row `r` of the `n`-th block of 1024 rows. -/
def rowOf (n : Fin 32) (r : Fin 1024) : Fin 32768 := ⟨1024 * n.val + r.val, by have := n.isLt; have := r.isLt; omega⟩

/-- Block `s` of half `h`: block `16h + s`. -/
def blockOf (h : Fin 2) (s : Fin 16) : Fin 32 := ⟨16 * h.val + s.val, by have := h.isLt; have := s.isLt; omega⟩

/-- Row `k` of the upper half of V, -/
def lowRow (k : Fin 1024) : Fin 2048 := ⟨k.val, by have := k.isLt; omega⟩
/-- and of its lower half. -/
def highRow (k : Fin 1024) : Fin 2048 := ⟨1024 + k.val, by have := k.isLt; omega⟩

/-! ## The function -/

variable (e1 e2 : FVec Ideal ⟨2, ![32768, 1024]⟩ .f32) (W : FVec Ideal ⟨2, ![128, 1024]⟩ .f32)
  (V : FVec Ideal ⟨2, ![2048, 128]⟩ .f32) (b : FVec Ideal ⟨1, ![128]⟩ .f32)

/-- The sum over the rows of block `n` of e1·e2, in column `j`. -/
def blockSum (n : Fin 32) (j : Fin 1024) : EReal :=
  ∑ r : Fin 1024, e1 (ix2 (rowOf n r) j) * e2 (ix2 (rowOf n r) j)

/-- The sum over the sixteen blocks of half `h`. -/
def halfSum (h : Fin 2) (j : Fin 1024) : EReal := ∑ s : Fin 16, blockSum e1 e2 (blockOf h s) j

/-- The sum over all 32768 rows. -/
def colSum (j : Fin 1024) : EReal := ∑ r : Fin 32768, e1 (ix2 r j) * e2 (ix2 r j)

/-- Row `r` of [e1 | e2] against column `c` of V, the two halves of the contraction apart. -/
def ffAt (r : Fin 32768) (c : Fin 128) : EReal :=
  (∑ k : Fin 1024, e1 (ix2 r k) * V (ix2 (lowRow k) c)) + ∑ k : Fin 1024, e2 (ix2 r k) * V (ix2 (highRow k) c)

/-- The mean over j of W[c,j] times the mean over the rows of e1·e2 in column j (the two halves of the rows summed apart). -/
def diagAt (c : Fin 128) : EReal :=
  (∑ j : Fin 1024, W (ix2 c j) * ((halfSum e1 e2 0 j + halfSum e1 e2 1 j) * ((1 / 32768 : ℝ) : EReal))) * ((1 / 1024 : ℝ) : EReal)

/-- The result. -/
def out : FVec Ideal ⟨2, ![32768, 128]⟩ .f32 := fun i =>
  Ideal.tanh (ffAt e1 e2 V (i 0) (i 1) + (diagAt e1 e2 W (i 1) + b (ix1 (i 1))))

theorem out_apply (r : Fin 32768) (c : Fin 128) :
    out e1 e2 W V b (ix2 r c) = Ideal.tanh (ffAt e1 e2 V r c + (diagAt e1 e2 W c + b (ix1 c))) := rfl

end Cert.Spec

end
-- ==== Proof.Run.lean ====
/-
  The idealized kernel's whole-program run with its RESULT array named.

  @main is two kernel regions around one stretch of host operations.  From the launch memory the buffer contents
  move through four boundaries: the launch contents, what region 0's write-backs leave, what the host operations
  make of that, and what region 1's write-backs leave.  Every weakly fair execution terminates without a fault
  in a state whose unscoped buffers hold the last boundary's contents; read at the argument arrays this is the
  frame, and read at the result array `%16` it names the result: the last boundary's contents there.
-/
import proofs.«108113_j52321291600495_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the five argument arrays as launched. -/
theorem run_main : θ_run defs (onTc (τ := τ) (main (F := F))) ⟨m, fun _ => 0, ρ⟩ (fun r => ∀ c : Dev nD,
      r.2.mem ((c.tc : Thread nD τ).loc main_v16) = W3 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v16 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.KV

end
-- ==== Proof.TanhValue.lean ====
/-
  The second kernel region's value.  Its grid has four points; point t loads rows 8192·t … 8192·t+8191 of the
  [32768, 128] array the first region wrote and the one row of the [1, 128] bias array, and writes back the same rows
  of the result:  tanh (x[r, c] + bias[0, c]).   Every point writes its block back and the four blocks tile the
  result array, so after the region the result array is that function of the two arrays, index by index.
-/
import proofs.«108113_j52321291600495_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TanhValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result as a function of the two arrays the region reads: tanh of the entry plus the bias of its column. -/
def G (x : FVec Ideal S32768x128 .bf16) (bias : FVec Ideal S1x128 .f32) : FVec Ideal S32768x128 .f32 :=
  fun i => Ideal.tanh (x i + bias (ix2 (0 : Fin 1) (i 1)))

/-- The body's one payload at an entry of the block: tanh of the loaded entry plus the loaded bias of its column. -/
theorem pay_apply (x0 : Vec Ideal S8192x128 .bf16) (x1 : Vec Ideal S1x128 .f32) (p : Fin 8192) (q : Fin 128) :
    k1_pay1 (F := Ideal) x0 x1 (ix2 p q) = Ideal.tanh (x0 (ix2 p q) + x1 (ix2 (0 : Fin 1) q)) := by
  unfold k1_pay1
  show Ideal.tanh ((shapeCast S8192x128 x0 _ (ix2 p q) : EReal) + broadcastTo S8192x128 (shapeCast S1x128 x1 _) _ (ix2 p q)) = _
  rw [shapeCast_self, shapeCast_self, broadcastTo_1b_ab_apply]

/-- The printed index maps over the four points: the input block and the output block are block t of their arrays,
    the bias block is the whole bias array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `G` of the two arrays as the region finds them. -/
theorem flushed_eq (c : Dev nD) (t : Fin cfg1.N) :
    (dat1 V c).flushed 2 t = ((cfg1.win 2).blk t).view.read (Elt Ideal) (G (V c main_v0_0) (V c main_v15)) := by
  show (cfg1.win 2).cut (grid1.coords t) ((dat1 V c).after 2 t) = _
  rw [after1_2]
  unfold out1_2
  rw [View.canon_unit_zero hz]
  simp only [View.ld_unit_zero (S := S8192x128) hz, View.ld_unit_zero (S := S1x128) hz]
  obtain ⟨e0, e1, e2, e3, e4, e5⟩ := idx_facts t
  funext y
  obtain ⟨p, q, rfl⟩ : ∃ (p : Fin 8192) (q : Fin 128), y = ix2 p q := ⟨y 0, y 1, eq_ix2 y⟩
  show k1_pay1 (F := Ideal) (iblk1 V c 0 t) (iblk1 V c 1 t) (ix2 p q) = G (V c main_v0_0) (V c main_v15) (((cfg1.win 2).blk t).view.emb (ix2 p q))
  have h0 : ((cfg1.win 0).blk t).view.emb (ix2 p q) = ((cfg1.win 2).blk t).view.emb (ix2 p q) := by
    funext a; apply Fin.ext
    match a with
    | ⟨0, _⟩ => show win1_0.index t (0 : Fin 2) * 8192 + 1 * p.val = win1_2.index t (0 : Fin 2) * 8192 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [pay_apply]
  unfold G
  refine congrArg Ideal.tanh (congrArg₂ (fun (a b : EReal) => a + b) ?_ ?_)
  · unfold iblk1
    rw [View.read_apply]
    show V c main_v0_0 (((cfg1.win 0).blk t).view.emb (ix2 p q)) = V c main_v0_0 (((cfg1.win 2).blk t).view.emb (ix2 p q))
    rw [h0]
  · unfold iblk1
    rw [View.read_apply]
    show V c main_v15 (((cfg1.win 1).blk t).view.emb (ix2 (0 : Fin 1) q)) = V c main_v15 (ix2 (0 : Fin 1) ((((cfg1.win 2).blk t).view.emb (ix2 p q)) 1))
    rw [h1]
    rfl

/-- An index of the result array is in point t's block iff each coordinate is in the block's range on its axis. -/
theorem mem_blk (t : Fin cfg1.N) (i : S32768x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v16).slice (win1_2.rect t)).set ↔ _
  rw [View.set_slice_whole, Rect.mem_set_unit]
  exact Iff.rfl

/-- The result array after the region: `G` of the two arrays the region read (row r lies in the block of point r / 8192). -/
theorem final (c : Dev nD) : (dat1 V c).arrAt 2 cfg1.N = G (V c main_v0_0) (V c main_v15) :=
  (dat1 V c).arrAt_eq_of_cover 2 _ (fun t _ => flushed_eq V c t) fun i => by
    have hN : grid1.N = 4 := N_1
    have hi0 : (i 0).val < 32768 := (i 0).isLt
    have hi1 : (i 1).val < 128 := (i 1).isLt
    refine ⟨⟨(i 0).val / 8192, by rw [show cfg1.N = 4 from N_1]; omega⟩, flush1_2 _, ?_⟩
    rw [mem_blk]
    obtain ⟨e0, e1, e2, e3, e4, e5⟩ := idx_facts ⟨(i 0).val / 8192, by rw [show cfg1.N = 4 from N_1]; omega⟩
    intro a
    match a with
    | ⟨0, _⟩ => show win1_2.index _ (0 : Fin 2) * 8192 ≤ (i 0).val ∧ (i 0).val < win1_2.index _ (0 : Fin 2) * 8192 + 8192; rw [e4]; dsimp only; omega
    | ⟨1, _⟩ => show win1_2.index _ (1 : Fin 2) * 128 ≤ (i 1).val ∧ (i 1).val < win1_2.index _ (1 : Fin 2) * 128 + 128; rw [e5]; omega

end Cert.KernelIdeal.TanhValue

end
-- ==== Proof.HostStage.lean ====
/-
  Between the two kernel regions @main runs eighteen host operations on the [2, 8, 1024] array of per-half column
  sums the first region wrote:  row 0 of half 0 plus row 0 of half 1, times 2⁻¹⁵, broadcast against W, summed over
  the 1024 columns from 0.0, divided by 1024.0, plus b, as a [1, 128] row.  This module names that row as a function
  of the three arrays it is computed from, reads it at column q, and reads back, through the host operations and the
  first region's write-backs, what the second region finds in its two input arrays.
-/
import proofs.«108113_j52321291600495_2_alg».proof.Proof.Gen.KernelIdeal.Frame
import proofs.«108113_j52321291600495_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HostStage

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

/-- The [1, 128] row the host operations compute from the column sums `s`, `W` and `b`. -/
def biasRow (s : FVec Ideal S2x8x1024 .f32) (w : FVec Ideal S128x1024 .f32) (b : FVec Ideal S128 .f32) : FVec Ideal S1x128 .f32 :=
  broadcastInDim S1x128 ![1] bcast_S128_S1x128_1
    (addf
      (Host.divf
        (Host.reduceAdd
          (mulf w
            (broadcastInDim S128x1024 ![0, 1] bcast_S1x1024_S128x1024_0_1
              (broadcastInDim S1x1024 ![1] bcast_S1024_S1x1024_1
                (mulf
                  (addf (shapeCast S1024 (extractStridedSlice S1x1x1024 ![0, 0, 0] s slices_S2x8x1024_S1x1x1024_0_0_0) shapeCasts_S1x1x1024_S1024)
                    (shapeCast S1024 (extractStridedSlice S1x1x1024 ![1, 0, 0] s slices_S2x8x1024_S1x1x1024_1_0_0) shapeCasts_S1x1x1024_S1024))
                  (broadcastInDim S1024 ![] bcast_S_S1024 (constant (F := Ideal) S_ .f32 0x38000000#32))))))
          (constant (F := Ideal) S_ .f32 0x00000000#32) reducesTo_S128x1024_S128_d1 h_S_)
        (broadcastInDim S128 ![] bcast_S_S128 (constant (F := Ideal) S_ .f32 0x44800000#32)))
      b)

variable (m : (ℓ : Loc nD τ sig) → Buf (Elt Ideal) ℓ) (ρ : Dev nD → PrngReg)

/-- What the second region finds in its bias array: the row above of what the first region left in the array of
    column sums, and of `W` and `b` as launched. -/
theorem V2_v15 (c : Dev nD) :
    V2 m ρ c main_v15 = biasRow ((dat0 (V0 m ρ) c).arrAt 4 cfg0.N) (m ((c : Thread nD τ).loc main_arg2)) (m ((c : Thread nD τ).loc main_arg4)) := by
  have h1 : W1 m ρ c (Proc.devRef .tc main_v0_1) = (dat0 (V0 m ρ) c).arrAt 4 cfg0.N := W1_arr m ρ c 4
  have h2 : W1 m ρ c (Proc.devRef .tc main_arg2) = m ((c : Thread nD τ).loc main_arg2) := W1_of_ne m ρ c main_arg2 (by decide)
  have h4 : W1 m ρ c (Proc.devRef .tc main_arg4) = m ((c : Thread nD τ).loc main_arg4) := W1_of_ne m ρ c main_arg4 (by decide)
  rw [← h1, ← h2, ← h4]
  show StableHlo.after hostOps1 (W1 m ρ c) (Proc.devRef .tc main_v15) = _
  generalize W1 m ρ c = X
  after_results
  rfl

/-- What the second region finds in its first input array: what the first region left there (no host operation
    writes it). -/
theorem V2_v0_0 (c : Dev nD) : V2 m ρ c main_v0_0 = (dat0 (V0 m ρ) c).arrAt 3 cfg0.N :=
  calc V2 m ρ c main_v0_0
    _ = W1 m ρ c (Proc.devRef .tc main_v0_0) := StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 3 cfg0.N := W1_arr m ρ c 3

end Cert.KernelIdeal.HostStage

end
-- ==== Proof.BiasRow.lean ====
/-
  The bias row read at a column.  At column q the [1, 128] row the host operations compute is

      ( 0 + Σ_{j<1024} W[q, j] · ((s[0, 0, j] + s[1, 0, j]) · 2⁻¹⁵) ) / 1024  +  b[q]

  of the array `s` of per-half column sums: each layout operation on the way (two slices of one row, two casts to a
  vector, three broadcasts, one sum over the columns) read at an index.
-/
import proofs.«108113_j52321291600495_2_alg».proof.Proof.HostStage

set_option maxRecDepth 16384

noncomputable section

namespace Cert.KernelIdeal.HostStage

open Cert.KernelIdeal Cert.KernelIdeal.Gen
open Idealize.ShloMosaic Idealize.ShloMosaic.TcCoe Idealize.SL.Sem Idealize.ShloMosaic.ValueIdx

/-- A vector as a one-row matrix, at (0, q): the vector at q. -/
theorem row_of_vec128 (x : FVec Ideal S128 .f32) (q : Fin 128) :
    broadcastInDim S1x128 ![1] bcast_S128_S1x128_1 x (ix2 (0 : Fin 1) q) = x (ix1 q) :=
  broadcastInDim_apply _ bcast_S128_S1x128_1 x _ (ix1 q) (fun a => match a with
    | ⟨0, _⟩ => by show q.val = if (128 : Nat) = 1 then 0 else q.val; rw [if_neg (by decide)])

theorem row_of_vec1024 (x : FVec Ideal S1024 .f32) (j : Fin 1024) :
    broadcastInDim S1x1024 ![1] bcast_S1024_S1x1024_1 x (ix2 (0 : Fin 1) j) = x (ix1 j) :=
  broadcastInDim_apply _ bcast_S1024_S1x1024_1 x _ (ix1 j) (fun a => match a with
    | ⟨0, _⟩ => by show j.val = if (1024 : Nat) = 1 then 0 else j.val; rw [if_neg (by decide)])

/-- A one-row matrix repeated down 128 rows, at (q, j): the row at j. -/
theorem rows_of_row (x : FVec Ideal S1x1024 .f32) (q : Fin 128) (j : Fin 1024) :
    broadcastInDim S128x1024 ![0, 1] bcast_S1x1024_S128x1024_0_1 x (ix2 q j) = x (ix2 (0 : Fin 1) j) :=
  broadcastInDim_apply _ bcast_S1x1024_S128x1024_0_1 x _ (ix2 (0 : Fin 1) j) (fun a => match a with
    | ⟨0, _⟩ => by show 0 = if (1 : Nat) = 1 then 0 else q.val; rw [if_pos rfl]
    | ⟨1, _⟩ => by show j.val = if (1024 : Nat) = 1 then 0 else j.val; rw [if_neg (by decide)])

/-- A scalar splat over a vector, anywhere: the scalar. -/
theorem splat128 (x : FVec Ideal S_ .f32) (q : Fin 128) : broadcastInDim S128 ![] bcast_S_S128 x (ix1 q) = x ix0 :=
  broadcastInDim_apply _ bcast_S_S128 x _ ix0 (fun a => a.elim0)
theorem splat1024 (x : FVec Ideal S_ .f32) (j : Fin 1024) : broadcastInDim S1024 ![] bcast_S_S1024 x (ix1 j) = x ix0 :=
  broadcastInDim_apply _ bcast_S_S1024 x _ ix0 (fun a => a.elim0)

/-- The sum over the columns from an initial value, at row q. -/
theorem rowSum (y : FVec Ideal S128x1024 .f32) (init : FVec Ideal S_ .f32) (q : Fin 128) :
    Host.reduceAdd y init reducesTo_S128x1024_S128_d1 h_S_ (ix1 q) = init (Shape.Idx.first h_S_) + ∑ k : Fin 1024, y (ix2 q k) := by
  simp only [Host.reduceAdd, Ideal.hostReduceAdd_def]
  rw [Ideal.hostReduceAdd_single reducesTo_S128x1024_S128_d1 (by decide)]
  refine congrArg (_ + ·) (Finset.sum_congr rfl fun k _ => ?_)
  exact congrArg y (funext fun a => Fin.ext (by match a with | ⟨0, _⟩ => rfl | ⟨1, _⟩ => rfl))

/-- Row 0 of half k of the column sums, cut out and cast to a vector, at lane j. -/
theorem halfRow (s : FVec Ideal S2x8x1024 .f32) (o : Nat) (h : S2x8x1024.Slices ![o, 0, 0] S1x1x1024) (k : Fin 2) (hk : k.val = o) (j : Fin 1024) :
    shapeCast S1024 (extractStridedSlice S1x1x1024 ![o, 0, 0] s h) shapeCasts_S1x1x1024_S1024 (ix1 j) = s (ix3 k (0 : Fin 8) j) := by
  refine (shapeCast_apply _ shapeCasts_S1x1x1024_S1024 (ix1 j) (ix3 (0 : Fin 1) (0 : Fin 1) j) ?_).trans
    (extractStridedSlice_apply _ s h _ (ix3 k (0 : Fin 8) j) ?_)
  · rw [Shape.rowMajor_val_three, Shape.rowMajor_val_one]
    show (0 * 1 + 0) * 1024 + j.val = j.val
    omega
  · intro a
    match a with
    | ⟨0, _⟩ => show k.val = o + 0; omega
    | ⟨1, _⟩ => show 0 = 0 + 0; rfl
    | ⟨2, _⟩ => show j.val = 0 + j.val; omega

/-- The bias row at column q. -/
theorem biasRow_apply (s : FVec Ideal S2x8x1024 .f32) (w : FVec Ideal S128x1024 .f32) (b : FVec Ideal S128 .f32) (q : Fin 128) :
    biasRow s w b (ix2 (0 : Fin 1) q)
      = Ideal.div (Ideal.ofBits .f32 0x00000000#32
          + ∑ j : Fin 1024, w (ix2 q j) * ((s (ix3 (0 : Fin 2) (0 : Fin 8) j) + s (ix3 (1 : Fin 2) (0 : Fin 8) j)) * Ideal.ofBits .f32 0x38000000#32))
          (Ideal.ofBits .f32 0x44800000#32) + b (ix1 q) := by
  unfold biasRow
  rw [row_of_vec128]
  show Ideal.div (Host.reduceAdd (F := Ideal) _ _ reducesTo_S128x1024_S128_d1 h_S_ (ix1 q)) (broadcastInDim S128 _ bcast_S_S128 _ (ix1 q)) + b (ix1 q) = _
  rw [rowSum, splat128]
  refine congrArg (· + b (ix1 q)) (congrArg₂ Ideal.div (congrArg (_ + ·) (Finset.sum_congr rfl fun j _ => ?_)) rfl)
  show w (ix2 q j) * broadcastInDim S128x1024 _ bcast_S1x1024_S128x1024_0_1 _ (ix2 q j) = _
  rw [rows_of_row, row_of_vec1024]
  show w (ix2 q j) * ((shapeCast S1024 _ shapeCasts_S1x1x1024_S1024 (ix1 j) + shapeCast S1024 _ shapeCasts_S1x1x1024_S1024 (ix1 j)) * broadcastInDim S1024 _ bcast_S_S1024 _ (ix1 j)) = _
  rw [halfRow s 0 _ 0 rfl, halfRow s 1 _ 1 rfl, splat1024]
  rfl

end Cert.KernelIdeal.HostStage

end
-- ==== Proof.KernelValue.lean ====
/-
  The idealized kernel's result array, from the pieces.  After the second region the result array is
  tanh (x[r, c] + bias[0, c]) of the two arrays that region read; x is what the first region left in its first
  output (the row of [e1 | e2] against V), and the bias row is the host operations' row of the first region's
  second output (the per-half column sums of e1·e2), W and b.  With those two outputs known entry by entry, the
  result is the specification's function of the five arguments: the zero pattern is 0, the pattern of 2⁻¹⁵ is the
  real 1/32768, and dividing by the real 1024 is multiplying by 1/1024 on every extended real.
-/
import proofs.«108113_j52321291600495_2_alg».proof.Proof.TanhValue
import proofs.«108113_j52321291600495_2_alg».proof.Proof.BiasRow
import proofs.«108113_j52321291600495_2_alg».proof.Proof.Spec

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array after the whole program, given the first region's two outputs entry by entry. -/
theorem result_of (c : Dev nD)
    (hff : ∀ (r : Fin 32768) (q : Fin 128), (dat0 (V0 m ρ) c).arrAt 3 cfg0.N (ix2 r q)
      = Cert.Spec.ffAt (m ((c : Thread nD τ).loc main_arg0)) (m ((c : Thread nD τ).loc main_arg1)) (m ((c : Thread nD τ).loc main_arg3)) r q)
    (hsum : ∀ (h : Fin 2) (j : Fin 1024), (dat0 (V0 m ρ) c).arrAt 4 cfg0.N (ix3 h (0 : Fin 8) j)
      = Cert.Spec.halfSum (m ((c : Thread nD τ).loc main_arg0)) (m ((c : Thread nD τ).loc main_arg1)) h j) :
    W3 m ρ c (Proc.devRef .tc main_v16)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) := by
  refine (W3_arr m ρ c 2).trans ((TanhValue.final (V2 m ρ) c).trans ?_)
  funext i
  obtain ⟨r, q, rfl⟩ : ∃ (r : Fin 32768) (q : Fin 128), i = ix2 r q := ⟨i 0, i 1, eq_ix2 i⟩
  rw [Cert.Spec.out_apply]
  unfold TanhValue.G
  refine congrArg Ideal.tanh (congrArg₂ (fun (a b : EReal) => a + b) ?_ ?_)
  · rw [HostStage.V2_v0_0]
    exact hff r q
  · show V2 m ρ c main_v15 (ix2 (0 : Fin 1) q) = _
    rw [HostStage.V2_v15, HostStage.biasRow_apply]
    simp only [hsum]
    rw [Cert.Spec.ofBits_zero, zero_add, Cert.Spec.ofBits_inv32768, Cert.Spec.ofBits_1024, Ideal.div_coe (by norm_num : (1024 : ℝ) ≠ 0)]
    rfl

end Cert.KernelIdeal.KV

end
-- ==== Proof.FfValue.lean ====
/-
  The feed-forward block of the first region, read as a value at the extended reals.

  At grid point t (points run t = 16·c0 + c1 over a 2 × 16 grid) the body loads rows 1024·t … 1024·t + 1023 of e1 and
  of e2 and all of V, and stores into rows 1024·t … 1024·t + 1023 of the [32768, 128] feed-forward array

      ff[p, q] = Σ_{k<1024} e1[1024·t + p, k] · V[k, q]  +  Σ_{k<1024} e2[1024·t + p, k] · V[1024 + k, q],

  two products into zero accumulators, added; the narrowing casts are the identity on the extended reals. Every point
  writes its block back and the 32 blocks tile the array, so after the region entry (r, q) of the array is the row r of
  [e1 | e2] against column q of V: `Cert.Spec.ffAt e1 e2 V r q`.

  In order: the product at an entry (`matmul_zero_apply`), the payload at an entry (`pay3_apply`), what each of the two
  control cases leaves in the block's buffer (`out_A`, `out_B`, `block_eq`), the blocks as rows of the arguments
  (`idx_facts`, `blk0_apply`, `blk1_apply`, `blk2_apply`, `pay_blocks`), what a point writes back (`flushed_eq`),
  the cover (`mem_blk`, `cover`), the array (`final`, `ffOut_apply`).
-/
import proofs.«108113_j52321291600495_2_alg».proof.Proof.Gen.KernelIdeal.Frame
import proofs.«108113_j52321291600495_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.FfValue

open Cert.KernelIdeal Cert.KernelIdeal.Gen
open Idealize.ShloMosaic Idealize.ShloMosaic.TcCoe Idealize.SL.Sem
open Idealize.ShloMosaic.Pipeline (Dat)

open Idealize.ShloMosaic.ValueIdx

/-- The contraction record of the body's two products: [1024,1024] against [1024,128] over the middle axis. -/
abbrev D : DotDims S1024x1024 S1024x128 S1024x128 := dot_S1024x1024_S1024x128_S1024x128_1_0_0_1_n_n

theorem lhs_0 (i : S1024x128.Idx) (q : D.contr.Idx) : (D.lhsIdx i q 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs_1 (i : S1024x128.Idx) (q : D.contr.Idx) : (D.lhsIdx i q 1).val = (q ⟨0, by decide⟩).val :=
  D.lhsIdx_val_of_single rfl i q
theorem rhs_0 (i : S1024x128.Idx) (q : D.contr.Idx) : (D.rhsIdx i q 0).val = (q ⟨0, by decide⟩).val :=
  D.rhsIdx_val_of_single rfl i q
theorem rhs_1 (i : S1024x128.Idx) (q : D.contr.Idx) : (D.rhsIdx i q 1).val = (i 1).val := by
  unfold DotDims.rhsIdx
  rw [dif_neg (show ¬(1 : Fin S1024x128.rank) ∈ D.rhsBatch by decide), dif_pos (show (1 : Fin S1024x128.rank) ∈ D.rhsNonContracting by decide)]
  rfl

/-- A product into the zero accumulator, at entry (p, q): the sum over the middle axis. -/
theorem matmul_zero_apply (a : FVec Ideal S1024x1024 .bf16) (b : FVec Ideal S1024x128 .bf16) (p : Fin 1024) (q : Fin 128) :
    matmul D none a b (constant (F := Ideal) S1024x128 .f32 0x00000000#32) (ix2 p q)
      = ∑ k : Fin 1024, a (ix2 p k) * b (ix2 k q) := by
  show FloatOps.matmul D none a b (constant (F := Ideal) S1024x128 .f32 0x00000000#32) (ix2 p q) = _
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 1024 rfl rfl).symm k) = ix2 k q := funext fun a => Fin.ext (by
    match a with
    | ⟨0, _⟩ => exact (rhs_0 _ _).trans hk
    | ⟨1, _⟩ => exact rhs_1 _ _)
  rw [el, er]

/-- The payload of the one store to the feed-forward block, as a term of the three loaded blocks. -/
theorem pay3_eq {F : FTy → Type} [FloatOps F] (x0 x1 : Vec F S1024x1024 .f32) (x2 : Vec F S2048x128 .f32) :
    k0_pay3 x0 x1 x2
      = truncf .bf16 (addf
          (matmul D none (truncf .bf16 x0 bitsLt_bf16_f32)
            (truncf .bf16 (extractStridedSlice S1024x128 ![0, 0] x2 slices_S2048x128_o0_0_S1024x128) bitsLt_bf16_f32)
            (constant S1024x128 .f32 0x00000000#32))
          (matmul D none (truncf .bf16 x1 bitsLt_bf16_f32)
            (truncf .bf16 (extractStridedSlice S1024x128 ![1024, 0] x2 slices_S2048x128_o1024_0_S1024x128) bitsLt_bf16_f32)
            (constant S1024x128 .f32 0x00000000#32))) bitsLt_bf16_f32 := rfl

/-- Entry (p, q) of the payload: row p of the first block against column q of the upper half of the third,
    plus row p of the second block against column q of its lower half. -/
theorem pay3_apply (x0 x1 : Vec Ideal S1024x1024 .f32) (x2 : Vec Ideal S2048x128 .f32) (p : Fin 1024) (q : Fin 128) :
    k0_pay3 (F := Ideal) x0 x1 x2 (ix2 p q)
      = (∑ k : Fin 1024, x0 (ix2 p k) * x2 (ix2 (Cert.Spec.lowRow k) q))
        + ∑ k : Fin 1024, x1 (ix2 p k) * x2 (ix2 (Cert.Spec.highRow k) q) := by
  rw [pay3_eq]
  refine (truncf_apply (ψ := .bf16) _ bitsLt_bf16_f32 _).trans ?_
  refine (addf_apply _ _ _).trans ?_
  refine congrArg₂ (· + ·) ?_ ?_
  · refine (matmul_zero_apply _ _ p q).trans ?_
    refine Finset.sum_congr rfl fun k _ => ?_
    refine congrArg₂ (· * ·) rfl ?_
    refine (truncf_apply (ψ := .bf16) _ bitsLt_bf16_f32 _).trans ?_
    exact slice2_axis0_apply 0 x2 slices_S2048x128_o0_0_S1024x128 k q (Cert.Spec.lowRow k) (Nat.zero_add _).symm
  · refine (matmul_zero_apply _ _ p q).trans ?_
    refine Finset.sum_congr rfl fun k _ => ?_
    refine congrArg₂ (· * ·) rfl ?_
    refine (truncf_apply (ψ := .bf16) _ bitsLt_bf16_f32 _).trans ?_
    exact slice2_axis0_apply 1024 x2 slices_S2048x128_o1024_0_S1024x128 k q (Cert.Spec.highRow k) rfl

variable (m : (ℓ : Loc nD τ sig) → Buf (Elt Ideal) ℓ) (ρ : Dev nD → PrngReg)

theorem hz : (![0, 0] : Fin 2 → Nat) = fun _ => 0 := funext fun a => by fin_cases a <;> rfl

/-- At a point whose second coordinate is zero, the body's one store to the feed-forward block leaves its payload there. -/
theorem out_A {F : FTy → Type} [FloatOps F] (c : Dev nD) (i : grid0.Coords) (a2 : Memref sig .tc .vmem S1024x1024 .f32) (h2 : a2.IsWhole)
    (a3 : Memref sig .tc .vmem S1024x1024 .f32) (h3 : a3.IsWhole) (a4 : Memref sig .tc .vmem S2048x128 .f32) (h4 : a4.IsWhole)
    (a5 : Memref sig .tc .vmem S1024x128 .bf16) (h5 : a5.IsWhole) (a6 : Memref sig .tc .vmem S1x8x1024 .f32) (h6 : a6.IsWhole)
    (hc : cond0_0 i) (x0 x1 : Vec F S1024x1024 .f32) (x2 : Vec F S2048x128 .f32) :
    out0_A_3 c i a2 h2 a3 h3 a4 h4 a5 h5 a6 h6 hc x0 x1 x2 = k0_pay3 x0 x1 x2 := by
  unfold out0_A_3
  rw [View.read_writes_eq_canon _ _ _ (cover0_A_3 c i a2 h2 a3 h3 a4 h4 a5 h5 a6 h6 hc x0 x1 x2)]
  unfold kernelRun0_A
  dsimp only
  rw [View.canon_unit_zero hz]
  simp only [View.readAt_eq_ld, h2.read_unread, h3.read_unread, h4.read_unread, View.ld_unit_zero (S := S1024x1024) hz,
    View.ld_unit_zero (S := S2048x128) hz]

/-- At every other point too. -/
theorem out_B {F : FTy → Type} [FloatOps F] (c : Dev nD) (i : grid0.Coords) (a2 : Memref sig .tc .vmem S1024x1024 .f32) (h2 : a2.IsWhole)
    (a3 : Memref sig .tc .vmem S1024x1024 .f32) (h3 : a3.IsWhole) (a4 : Memref sig .tc .vmem S2048x128 .f32) (h4 : a4.IsWhole)
    (a5 : Memref sig .tc .vmem S1024x128 .bf16) (h5 : a5.IsWhole) (a6 : Memref sig .tc .vmem S1x8x1024 .f32) (h6 : a6.IsWhole)
    (hc : ¬cond0_0 i) (x0 x1 : Vec F S1024x1024 .f32) (x2 : Vec F S2048x128 .f32) (xo4 : Vec F S1x8x1024 .f32) :
    out0_B_3 c i a2 h2 a3 h3 a4 h4 a5 h5 a6 h6 hc x0 x1 x2 xo4 = k0_pay3 x0 x1 x2 := by
  unfold out0_B_3
  rw [View.read_writes_eq_canon _ _ _ (cover0_B_3 c i a2 h2 a3 h3 a4 h4 a5 h5 a6 h6 hc x0 x1 x2 xo4)]
  unfold kernelRun0_B
  dsimp only
  rw [View.canon_unit_zero hz]
  simp only [View.readAt_eq_ld, h2.read_unread, h3.read_unread, h4.read_unread, View.ld_unit_zero (S := S1024x1024) hz,
    View.ld_unit_zero (S := S2048x128) hz]

/-- So after every point the feed-forward block's buffer holds the payload of the point's three input blocks. -/
theorem block_eq {F : FTy → Type} [FloatOps F] (V : (c : Dev nD) → (b : Ref sig .tc) → Buf (Elt F) ((c : Thread nD τ).loc b))
    (c : Dev nD) (t : Fin cfg0.N) :
    (outsAt0 V c t.val t.isLt).1 = k0_pay3 (iblk0 V c 0 t) (iblk0 V c 1 t) (iblk0 V c 2 t) := by
  by_cases h0 : t.val % 16 = 0
  · rw [outsAt0_A V c t h0]
    dsimp only
    exact out_A c (grid0.coords t) (ms0_0 t) (hs0_0 t) (ms0_1 t) (hs0_1 t) (ms0_2 t) (hs0_2 t) (ms0_3 t) (hs0_3 t) (ms0_4 t) (hs0_4 t)
      ((hcond0_0 t).mpr h0) (iblk0 V c 0 t) (iblk0 V c 1 t) (iblk0 V c 2 t)
  · rw [outsAt0_B V c t h0]
    dsimp only
    exact out_B c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk0 V c 0 t) (iblk0 V c 1 t) (iblk0 V c 2 t)
      (outsAt0 V c (t.val - 1) (Nat.lt_of_le_of_lt (Nat.sub_le _ _) t.isLt)).2

/-- The block indices, over the grid: at point t the two row windows and the feed-forward window are at block (t, 0),
    the third input's window at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first input's block at point t is rows 1024·t … 1024·t + 1023 of the first argument. -/
theorem blk0_apply (c : Dev nD) (t : Fin cfg0.N) (p k : Fin 1024) (r : Fin 32768) (hr : r.val = 1024 * t.val + p.val) :
    (iblk0 (V0 m ρ) c 0 t : Vec Ideal S1024x1024 .f32) (ix2 p k)
      = (m ((c : Thread nD τ).loc main_arg0) : S32768x1024.Idx → EReal) (ix2 r k) := by
  obtain ⟨e0, e1, -⟩ := idx_facts t
  unfold iblk0
  rw [View.read_apply]
  show m ((c : Thread nD τ).loc main_arg0) _ = m ((c : Thread nD τ).loc main_arg0) _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The second input's block at point t is the same rows of the second argument. -/
theorem blk1_apply (c : Dev nD) (t : Fin cfg0.N) (p k : Fin 1024) (r : Fin 32768) (hr : r.val = 1024 * t.val + p.val) :
    (iblk0 (V0 m ρ) c 1 t : Vec Ideal S1024x1024 .f32) (ix2 p k)
      = (m ((c : Thread nD τ).loc main_arg1) : S32768x1024.Idx → EReal) (ix2 r k) := by
  obtain ⟨-, -, e0, e1, -⟩ := idx_facts t
  unfold iblk0
  rw [View.read_apply]
  show m ((c : Thread nD τ).loc main_arg1) _ = m ((c : Thread nD τ).loc main_arg1) _
  congr 1
  funext a
  apply Fin.ext
  match a with
  | ⟨0, _⟩ => show win0_1.index t (0 : Fin 2) * 1024 + 1 * p.val = r.val; rw [e0, hr]; omega
  | ⟨1, _⟩ => show win0_1.index t (1 : Fin 2) * 1024 + 1 * k.val = k.val; rw [e1]; omega

/-- The third input's block is the whole of the fourth argument at every point. -/
theorem blk2_apply (c : Dev nD) (t : Fin cfg0.N) (k : Fin 2048) (q : Fin 128) :
    (iblk0 (V0 m ρ) c 2 t : Vec Ideal S2048x128 .f32) (ix2 k q)
      = (m ((c : Thread nD τ).loc main_arg3) : S2048x128.Idx → EReal) (ix2 k q) := by
  obtain ⟨-, -, -, -, e0, e1, -⟩ := idx_facts t
  unfold iblk0
  rw [View.read_apply]
  show m ((c : Thread nD τ).loc main_arg3) _ = m ((c : Thread nD τ).loc main_arg3) _
  congr 1
  funext a
  apply Fin.ext
  match a with
  | ⟨0, _⟩ => show win0_2.index t (0 : Fin 2) * 2048 + 1 * k.val = k.val; rw [e0]; omega
  | ⟨1, _⟩ => show win0_2.index t (1 : Fin 2) * 128 + 1 * q.val = q.val; rw [e1]; omega

/-- The payload of the three input blocks of point t, at entry (p, q): row 1024·t + p of [e1 | e2] against column q of V. -/
theorem pay_blocks (c : Dev nD) (t : Fin cfg0.N) (p : Fin 1024) (q : Fin 128) (r : Fin 32768) (hr : r.val = 1024 * t.val + p.val) :
    k0_pay3 (F := Ideal) (iblk0 (V0 m ρ) c 0 t) (iblk0 (V0 m ρ) c 1 t) (iblk0 (V0 m ρ) c 2 t) (ix2 p q)
      = Cert.Spec.ffAt (m ((c : Thread nD τ).loc main_arg0)) (m ((c : Thread nD τ).loc main_arg1)) (m ((c : Thread nD τ).loc main_arg3)) r q := by
  refine (pay3_apply (iblk0 (V0 m ρ) c 0 t) (iblk0 (V0 m ρ) c 1 t) (iblk0 (V0 m ρ) c 2 t) p q).trans ?_
  unfold Cert.Spec.ffAt
  refine congrArg₂ (fun a b : EReal => a + b)
    (Finset.sum_congr rfl fun k _ => congrArg₂ (fun a b : EReal => a * b) ?_ ?_)
    (Finset.sum_congr rfl fun k _ => congrArg₂ (fun a b : EReal => a * b) ?_ ?_)
  · exact blk0_apply m ρ c t p k r hr
  · exact blk2_apply m ρ c t (Cert.Spec.lowRow k) q
  · exact blk1_apply m ρ c t p k r hr
  · exact blk2_apply m ρ c t (Cert.Spec.highRow k) q
/-- What the feed-forward array ends holding: row r of [e1 | e2] against column q of V. -/
def G3 (c : Dev nD) : S32768x128.Idx → EReal := fun i =>
  Cert.Spec.ffAt (m ((c : Thread nD τ).loc main_arg0)) (m ((c : Thread nD τ).loc main_arg1)) (m ((c : Thread nD τ).loc main_arg3)) (i 0) (i 1)

/-- What point t writes back is block t of that function. -/
theorem flushed_eq (c : Dev nD) (t : Fin cfg0.N) (hf : (cfg0.win 3).flush t = true) :
    (dat0 (V0 m ρ) c).flushed 3 t = ((cfg0.win 3).blk t).view.read (Elt Ideal) (G3 m c) := by
  have hN : t.val < 32 := lt_of_lt_of_eq t.isLt (show cfg0.N = 32 from N_0)
  show (cfg0.win 3).cut (grid0.coords t) ((dat0 (V0 m ρ) c).after 3 t) = _
  rw [after0_3, block_eq (V0 m ρ) c t]
  obtain ⟨-, -, -, -, -, -, e0, e1⟩ := idx_facts t
  funext j
  have hj0 : (j 0).val < 1024 := (j 0).isLt
  have hj1 : (j 1).val < 128 := (j 1).isLt
  have hemb : ((cfg0.win 3).blk t).view.emb j
      = ix2 (⟨1024 * t.val + (j 0).val, by omega⟩ : Fin 32768) (⟨(j 1).val, hj1⟩ : Fin 128) := by
    funext a
    apply Fin.ext
    match a with
    | ⟨0, _⟩ => show win0_3.index t (0 : Fin 2) * 1024 + 1 * (j 0).val = 1024 * t.val + (j 0).val; rw [e0]; omega
    | ⟨1, _⟩ => show win0_3.index t (1 : Fin 2) * 128 + 1 * (j 1).val = (j 1).val; rw [e1]; omega
  have hx : (cfg0.win 3).xinj (grid0.coords t) j = ix2 (⟨(j 0).val, hj0⟩ : Fin 1024) (⟨(j 1).val, hj1⟩ : Fin 128) := by
    funext a
    match a with
    | ⟨0, _⟩ => rfl
    | ⟨1, _⟩ => rfl
  show k0_pay3 (F := Ideal) (iblk0 (V0 m ρ) c 0 t) (iblk0 (V0 m ρ) c 1 t) (iblk0 (V0 m ρ) c 2 t)
      ((cfg0.win 3).xinj (grid0.coords t) j) = G3 m c (((cfg0.win 3).blk t).view.emb j)
  rw [hx, hemb]
  exact pay_blocks m ρ c t ⟨(j 0).val, hj0⟩ ⟨(j 1).val, hj1⟩ ⟨1024 * t.val + (j 0).val, by omega⟩ rfl

/-- An index of the array is in point t's block iff each coordinate is in the block's range on its axis. -/
theorem mem_blk (t : Fin cfg0.N) (i : S32768x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v0_0).slice (win0_3.rect t)).set ↔ _
  rw [View.set_slice_whole, Rect.mem_set_unit]
  exact Iff.rfl

/-- Row r is in the block of point r / 1024, which is written back: the 32 blocks of 1024 rows cover the array. -/
theorem cover (i : S32768x128.Idx) : ∃ t : Fin cfg0.N, (cfg0.win 3).flush t = true ∧ i ∈ ((cfg0.win 3).blk t).view.set := by
  have hi0 : (i 0).val < 32768 := (i 0).isLt
  have hi1 : (i 1).val < 128 := (i 1).isLt
  obtain ⟨t, ht⟩ : ∃ t : Fin cfg0.N, t.val = (i 0).val / 1024 :=
    ⟨⟨(i 0).val / 1024, by rw [show cfg0.N = 32 from N_0]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 128 ≤ (i 1).val ∧ (i 1).val < win0_3.index t (1 : Fin 2) * 128 + 128
    rw [e1]; omega

/-- So the feed-forward array ends holding that function. -/
theorem final (c : Dev nD) : (dat0 (V0 m ρ) c).arrAt 3 cfg0.N = G3 m c :=
  (dat0 (V0 m ρ) c).arrAt_eq_of_cover 3 (G3 m c) (flushed_eq m ρ c) cover

/-- Entry (r, q) of the feed-forward array after the first region: row r of [e1 | e2] against column q of V. -/
theorem ffOut_apply (c : Dev nD) (r : Fin 32768) (q : Fin 128) :
    (dat0 (V0 m ρ) c).arrAt 3 cfg0.N (ValueIdx.ix2 r q)
      = Cert.Spec.ffAt (m ((c : Thread nD τ).loc main_arg0)) (m ((c : Thread nD τ).loc main_arg1)) (m ((c : Thread nD τ).loc main_arg3)) r q := by
  rw [final m ρ c]
  rfl

end Cert.KernelIdeal.FfValue

end
-- ==== Proof.SumValue.lean ====
/-
  The accumulated column sums: what the first kernel region leaves in the [2,8,1024] array of per-half partial sums.

  The region runs its 32 grid points t = 16h + s (h < 2, s < 16) in order. At point t the two input blocks are rows
  1024·t … 1024·t + 1023 of the two [32768,1024] argument arrays e1 and e2, and the [1,8,1024] accumulator block is
  block h of the [2,8,1024] array. At s = 0 the block is set to 0 and row 0 then gets 0 + Σ_{k<1024} e1[1024t+k, l]·e2[1024t+k, l]
  at lane l; at s > 0 row 0 gets what it held plus that sum, and rows 1 … 7 keep what they held. So after point 16h + s row 0
  holds 0 + Σ_{s' ≤ s} blockSum (16h + s') and rows 1 … 7 hold 0; the block is written back at s = 15, where row 0 is
  halfSum h. Hence the array ends with halfSum h j at (h, 0, j):  `sumOut_apply`.

  Order of the lemmas: the accumulating payload at a lane (`pay2_apply`); what a point of either kind leaves in the
  block, at every index (`out_A`, `out_B`); the fold over a run of sixteen points (`outs_fold`); the input blocks as
  rows of the argument arrays (`colSum_iblk`); the block at the last point of a run (`outs_last`); what is written
  back (`flushed_eq`); the array after the run (`sumOut_apply`).
-/
import proofs.«108113_j52321291600495_2_alg».proof.Proof.Gen.KernelIdeal.Frame
import proofs.«108113_j52321291600495_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.SumValue

open Cert.KernelIdeal Cert.KernelIdeal.Gen
open Idealize.ShloMosaic Idealize.ShloMosaic.TcCoe Idealize.SL.Sem
open Idealize.ShloMosaic.Pipeline (Dat)

open Idealize.ShloMosaic.ValueIdx

/-- The source index of a column sum: lane l of the reduced vector, row k of the block. -/
theorem lift_col (l : Fin 1024) (k : Fin 1024) :
    reduces_S1024x1024_S1024.lift (ix1 l) k = ix2 k l := by
  funext a
  apply Fin.ext
  match a with
  | ⟨0, _⟩ => rfl
  | ⟨1, _⟩ => rfl

/-- The accumulating payload at lane l: the old row entry plus the sum over the block's 1024 rows of the
    product of the two blocks in column l (the reduction from the zero accumulator is the plain sum; the two
    casts [1024] → [1,1024] → [1,1,1024] keep the lane). -/
theorem pay2_apply (x0 x1 : Vec Ideal S1024x1024 .f32) (v8 : Vec Ideal S1x1x1024 .f32) (u r : Fin 1) (l : Fin 1024) :
    k0_pay2 (F := Ideal) x0 x1 v8 (ix3 u r l) = v8 (ix3 u r l) + ∑ k : Fin 1024, x0 (ix2 k l) * x1 (ix2 k l) := by
  unfold k0_pay2
  dsimp only
  refine (addf_apply _ _ _).trans ?_
  refine congrArg₂ (· + ·) (congrFun (shapeCast_self v8 _) _) ?_
  refine (shapeCast_ab_1ab_apply _ _ u r l).trans ?_
  refine (shapeCast_a_1a_apply _ _ r l).trans ?_
  refine (Ideal.multiReduction_add_single _ _ reduces_S1024x1024_S1024 _ _ (ix1 l)).trans ?_
  show ∑ k : Fin 1024, x0 (reduces_S1024x1024_S1024.lift (ix1 l) k) * x1 (reduces_S1024x1024_S1024.lift (ix1 l) k) = _
  refine Finset.sum_congr rfl fun k _ => ?_
  rw [lift_col]

/-! ## What one point leaves in the accumulator block -/

theorem hz2 : (![0, 0] : Fin 2 → Nat) = fun _ => 0 := funext fun a => by fin_cases a <;> rfl
theorem hz3 : (![0, 0, 0] : Fin 3 → Nat) = fun _ => 0 := funext fun a => by fin_cases a <;> rfl

/-- Row 0 of the [1,8,1024] block, as the rectangle the accumulating store and its load go through. -/
abbrev rowRect : Rect S1x8x1024 := Rect.unit ![0, 0, 0] S1x1x1024.size inb_S1x8x1024_S1x1x1024_0_0_0

/-- Lane l of that row is element (0, 0, l) of the block. -/
theorem rowRect_emb (u r : Fin 1) (l : Fin 1024) : rowRect.emb (ix3 u r l) = ix3 (0 : Fin 1) (0 : Fin 8) l := by
  funext a
  apply Fin.ext
  match a with
  | ⟨0, _⟩ => show 0 + 1 * u.val = 0; omega
  | ⟨1, _⟩ => show 0 + 1 * r.val = 0; omega
  | ⟨2, _⟩ => show 0 + 1 * l.val = l.val; omega

/-- An element of rows 1 … 7 is not in it. -/
theorem not_mem_rowRect (u : Fin 1) (r : Fin 8) (l : Fin 1024) (hr : r.val ≠ 0) : ix3 u r l ∉ rowRect.set := by
  rw [Rect.mem_set_unit]
  intro h
  have h1 : r.val < 0 + 1 := (h 1).2
  omega

/-- The sum over the 1024 rows of a pair of blocks of their product, in column l. -/
def colSum (x0 x1 : Vec Ideal S1024x1024 .f32) (l : Fin 1024) : EReal := ∑ k : Fin 1024, x0 (ix2 k l) * x1 (ix2 k l)

/-- What one point adds to the accumulator block: the column sums on row 0, nothing on rows 1 … 7. -/
def rowAdd (x0 x1 : Vec Ideal S1024x1024 .f32) : S1x8x1024.Idx → EReal :=
  fun i => if (i 1).val = 0 then colSum x0 x1 (i 2) else 0

theorem rowAdd_ix3 (x0 x1 : Vec Ideal S1024x1024 .f32) (u : Fin 1) (r : Fin 8) (l : Fin 1024) :
    rowAdd x0 x1 (ix3 u r l) = if r.val = 0 then colSum x0 x1 l else 0 := rfl

/-- AN ACCUMULATING POINT (not the first of its run of sixteen): the block holding xo ends holding xo plus the point's
    column sums on row 0, and xo on the other rows — one store over row 0 of what the load of row 0 read plus the sums. -/
theorem out_B (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S2048x128 .f32) (h4 : a4.IsWhole) (a5 : Memref sig .tc .vmem S1024x128 .bf16) (h5 : a5.IsWhole)
    (a6 : Memref sig .tc .vmem S1x8x1024 .f32) (h6 : a6.IsWhole) (hc : ¬cond0_0 i)
    (x0 x1 : Vec Ideal S1024x1024 .f32) (x2 : Vec Ideal S2048x128 .f32) (xo : Vec Ideal S1x8x1024 .f32) (y : S1x8x1024.Idx) :
    out0_B_4 (F := Ideal) c i a2 h2 a3 h3 a4 h4 a5 h5 a6 h6 hc x0 x1 x2 xo y = xo y + rowAdd x0 x1 y := by
  obtain ⟨u, r, l, rfl⟩ : ∃ (u : Fin 1) (r : Fin 8) (l : Fin 1024), y = ix3 u r l := ⟨y 0, y 1, y 2, eq_ix3 y⟩
  obtain rfl : u = 0 := Subsingleton.elim _ _
  unfold out0_B_4
  unfold kernelRun0_B
  dsimp only
  rw [rowAdd_ix3]
  by_cases hr : r.val = 0
  · rw [if_pos hr]
    obtain rfl : r = 0 := Fin.ext hr
    refine (congrArg _ (rowRect_emb 0 0 l).symm).trans ?_
    refine (View.read_writes_cons_emb _ _ _ _ _ _).trans ?_
    simp only [View.readAt_eq_ld, h2.read_unread, h3.read_unread, h6.read_unread, View.ld_unit_zero (S := S1024x1024) hz2]
    refine (pay2_apply x0 x1 _ 0 0 l).trans ?_
    refine congrArg₂ (· + ·) ?_ rfl
    exact congrArg xo (rowRect_emb 0 0 l)
  · rw [if_neg hr, add_zero]
    refine (View.read_writes_apply_of_forall_not_mem _ _ _ _ ?_).trans (congrFun (h6.read_unread xo) _)
    intro p hp
    obtain rfl := List.mem_singleton.mp hp
    exact not_mem_rowRect 0 r l hr

/-- The zero block is 0 everywhere (the pattern of +0.0 denotes 0). -/
theorem pay1_apply (y : S1x8x1024.Idx) : k0_pay1 (F := Ideal) y = 0 := by
  unfold k0_pay1
  exact Cert.Spec.ofBits_zero

/-- THE FIRST POINT OF A RUN OF SIXTEEN: the block is zeroed, then row 0 gets 0 plus the point's column sums — the store
    over row 0 on top of the store of the zero block, whose row 0 the load in between reads back. -/
theorem out_A (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S2048x128 .f32) (h4 : a4.IsWhole) (a5 : Memref sig .tc .vmem S1024x128 .bf16) (h5 : a5.IsWhole)
    (a6 : Memref sig .tc .vmem S1x8x1024 .f32) (h6 : a6.IsWhole) (hc : cond0_0 i)
    (x0 x1 : Vec Ideal S1024x1024 .f32) (x2 : Vec Ideal S2048x128 .f32) (y : S1x8x1024.Idx) :
    out0_A_4 (F := Ideal) c i a2 h2 a3 h3 a4 h4 a5 h5 a6 h6 hc x0 x1 x2 y = 0 + rowAdd x0 x1 y := by
  obtain ⟨u, r, l, rfl⟩ : ∃ (u : Fin 1) (r : Fin 8) (l : Fin 1024), y = ix3 u r l := ⟨y 0, y 1, y 2, eq_ix3 y⟩
  obtain rfl : u = 0 := Subsingleton.elim _ _
  unfold out0_A_4
  rw [View.read_writes_eq_canon _ _ _ (cover0_A_4 c i a2 h2 a3 h3 a4 h4 a5 h5 a6 h6 hc x0 x1 x2)]
  unfold kernelRun0_A
  dsimp only
  sl_unfold_words
  rw [rowAdd_ix3]
  by_cases hr : r.val = 0
  · rw [if_pos hr]
    obtain rfl : r = 0 := Fin.ext hr
    refine (congrArg _ (rowRect_emb 0 0 l).symm).trans ?_
    refine (View.canon_cons_emb _ _ _ _).trans ?_
    simp only [View.readAt_eq_ld, h2.read_unread, h3.read_unread, View.ld_unit_zero (S := S1024x1024) hz2]
    refine (pay2_apply x0 x1 _ 0 0 l).trans ?_
    refine congrArg₂ (· + ·) ?_ rfl
    rw [View.readCov_eq_canon', View.canon_unit_zero (S := S1x8x1024) hz3]
    exact pay1_apply _
  · rw [if_neg hr, add_zero]
    refine (View.canon_cons_of_not_mem _ _ (not_mem_rowRect 0 r l hr)).trans ?_
    rw [View.canon_unit_zero (S := S1x8x1024) hz3]
    exact pay1_apply _

/-! ## The fold over a run of sixteen points -/

section Region

variable (V : (c : Dev nD) → (b : Ref sig .tc) → Buf (Elt Ideal) ((c : Thread nD τ).loc b))

/-- What point n adds to the accumulator block: the column sums of the products of the point's two input blocks on
    row 0, nothing elsewhere (and nothing past the grid). -/
def addend (c : Dev nD) (n : Nat) : S1x8x1024.Idx → EReal :=
  fun i => if hn : n < cfg0.N then rowAdd (iblk0 V c 0 ⟨n, hn⟩) (iblk0 V c 1 ⟨n, hn⟩) i else 0

/-- At the first point of a run of sixteen the block ends at 0 plus the point's addend. -/
theorem outs_A (c : Dev nD) (t : Fin cfg0.N) (h0 : t.val % 16 = 0) (i : S1x8x1024.Idx) :
    (outsAt0 V c t.val t.isLt).2 i = 0 + addend V c t.val i := by
  rw [outsAt0_A V c t h0]
  dsimp only
  unfold addend
  rw [dif_pos t.isLt]
  exact out_A c (grid0.coords t) (ms0_0 t) (hs0_0 t) (ms0_1 t) (hs0_1 t) (ms0_2 t) (hs0_2 t) (ms0_3 t) (hs0_3 t) (ms0_4 t) (hs0_4 t)
    ((hcond0_0 t).mpr h0) (iblk0 V c 0 t) (iblk0 V c 1 t) (iblk0 V c 2 t) i

/-- At every other point it ends at what the point before left plus the point's addend. -/
theorem outs_B (c : Dev nD) (t : Fin cfg0.N) (h0 : ¬t.val % 16 = 0) (i : S1x8x1024.Idx) :
    (outsAt0 V c t.val t.isLt).2 i
      = (outsAt0 V c (t.val - 1) (Nat.lt_of_le_of_lt (Nat.sub_le _ _) t.isLt)).2 i + addend V c t.val i := by
  rw [outsAt0_B V c t h0]
  dsimp only
  unfold addend
  rw [dif_pos t.isLt]
  exact out_B c (grid0.coords t) (ms0_0 t) (hs0_0 t) (ms0_1 t) (hs0_1 t) (ms0_2 t) (hs0_2 t) (ms0_3 t) (hs0_3 t) (ms0_4 t) (hs0_4 t)
    (fun h => h0 ((hcond0_0 t).mp h)) (iblk0 V c 0 t) (iblk0 V c 1 t) (iblk0 V c 2 t)
    (outsAt0 V c (t.val - 1) (Nat.lt_of_le_of_lt (Nat.sub_le _ _) t.isLt)).2 i

/-- After point 16q + j (j < 16) the accumulator block holds 0 plus the addends of points 16q … 16q + j: it is
    reset at the multiples of 16 and stepped from the point before elsewhere. -/
theorem outs_fold (c : Dev nD) (q j : Nat) (hj : j < 16) (h : 16 * q + j < cfg0.N) (i : S1x8x1024.Idx) :
    (outsAt0 V c (16 * q + j) h).2 i = 0 + ∑ s ∈ Finset.range (j + 1), addend V c (16 * q + s) i := by
  have e := Pipeline.eq_accAt (N := cfg0.N) (fun n hn => (outsAt0 V c n hn).2) 16
    (fun n _ i => 0 + addend V c n i) (fun n _ acc i => acc i + addend V c n i)
    (fun n hn hmod => funext fun i => outs_A V c ⟨n, hn⟩ hmod i)
    (fun n hn hmod => funext fun i => outs_B V c ⟨n + 1, hn⟩ hmod i)
    q j hj h
  have e' := Pipeline.accAt_add_apply (N := cfg0.N) (fun n _ i => 0 + addend V c n i) (fun n _ acc i => acc i + addend V c n i)
    (fun _ => (0 : EReal)) (addend V c) (16 * q) 15 (fun _ _ => rfl) (fun _ _ _ _ _ _ => rfl) j (by omega) h i
  exact (congrFun e i).trans e'

end Region

/-! ## The blocks the windows read and write -/

/-- The block indices at every point of the grid: at point t the two input windows are on block row t of their arrays,
    the accumulator's window on block t / 16 of the [2,8,1024] array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_4.index t (0 : Fin 3) = t.val / 16 ∧ win0_4.index t (1 : Fin 3) = 0 ∧ win0_4.index t (2 : Fin 3) = 0 :=
  (by decide +kernel : ∀ t : Fin grid0.N, _)

section Region

variable (V : (c : Dev nD) → (b : Ref sig .tc) → Buf (Elt Ideal) ((c : Thread nD τ).loc b))

/-- Row k of the first input's block at point t is row 1024·t + k of the first argument array; -/
theorem iblk0_0_apply (c : Dev nD) (t : Fin cfg0.N) (n : Fin 32) (hn : n.val = t.val) (k l : Fin 1024) :
    (iblk0 V c 0 t : Vec Ideal S1024x1024 .f32) (ix2 k l) = V c main_arg0 (ix2 (Cert.Spec.rowOf n k) l) := by
  obtain ⟨e0, e1, -⟩ := idx_facts t
  unfold iblk0
  rw [View.read_apply]
  show V c main_arg0 (((cfg0.win 0).blk t).view.emb (ix2 k l)) = V c main_arg0 (ix2 (Cert.Spec.rowOf n k) l)
  refine congrArg _ (funext fun a => Fin.ext ?_)
  match a with
  | ⟨0, _⟩ => show win0_0.index t (0 : Fin 2) * 1024 + 1 * k.val = 1024 * n.val + k.val; rw [e0, hn]; omega
  | ⟨1, _⟩ => show win0_0.index t (1 : Fin 2) * 1024 + 1 * l.val = l.val; rw [e1]; omega

/-- and of the second input's block, of the second argument array. -/
theorem iblk0_1_apply (c : Dev nD) (t : Fin cfg0.N) (n : Fin 32) (hn : n.val = t.val) (k l : Fin 1024) :
    (iblk0 V c 1 t : Vec Ideal S1024x1024 .f32) (ix2 k l) = V c main_arg1 (ix2 (Cert.Spec.rowOf n k) l) := by
  obtain ⟨-, -, e2, e3, -⟩ := idx_facts t
  unfold iblk0
  rw [View.read_apply]
  show V c main_arg1 (((cfg0.win 1).blk t).view.emb (ix2 k l)) = V c main_arg1 (ix2 (Cert.Spec.rowOf n k) l)
  refine congrArg _ (funext fun a => Fin.ext ?_)
  match a with
  | ⟨0, _⟩ => show win0_1.index t (0 : Fin 2) * 1024 + 1 * k.val = 1024 * n.val + k.val; rw [e2, hn]; omega
  | ⟨1, _⟩ => show win0_1.index t (1 : Fin 2) * 1024 + 1 * l.val = l.val; rw [e3]; omega

/-- So the column sums of point t's two blocks are the block sum of block t of the two argument arrays. -/
theorem colSum_iblk (c : Dev nD) (t : Fin cfg0.N) (n : Fin 32) (hn : n.val = t.val) (l : Fin 1024) :
    colSum (iblk0 V c 0 t) (iblk0 V c 1 t) l = Cert.Spec.blockSum (V c main_arg0) (V c main_arg1) n l := by
  unfold colSum Cert.Spec.blockSum
  exact Finset.sum_congr rfl fun k _ => congrArg₂ (· * ·) (iblk0_0_apply V c t n hn k l) (iblk0_1_apply V c t n hn k l)

end Region

/-! ## The array after the run -/

section Region

variable (V : (c : Dev nD) → (b : Ref sig .tc) → Buf (Elt Ideal) ((c : Thread nD τ).loc b))

/-- The [2,8,1024] array of half sums: row 0 of half h holds, lane by lane, the sums over half h's sixteen blocks of
    rows; rows 1 … 7 hold 0. -/
def halves (c : Dev nD) : S2x8x1024.Idx → EReal :=
  fun i => if (i 1).val = 0 then Cert.Spec.halfSum (V c main_arg0) (V c main_arg1) (i 0) (i 2) else 0

theorem halves_ix3 (c : Dev nD) (h : Fin 2) (r : Fin 8) (l : Fin 1024) :
    halves V c (ix3 h r l) = if r.val = 0 then Cert.Spec.halfSum (V c main_arg0) (V c main_arg1) h l else 0 := rfl

/-- At the last point 16h + 15 of half h's run the accumulator block holds half h's sums on row 0 and 0 on the other
    rows: 0 plus the sixteen points' addends, a sum over a range of 16 against the sum over the sixteen blocks. -/
theorem outs_last (c : Dev nD) (t : Fin cfg0.N) (h15 : t.val % 16 = 15) (hq : Fin 2) (hhq : hq.val = t.val / 16)
    (u : Fin 1) (r : Fin 8) (l : Fin 1024) :
    (outsAt0 V c t.val t.isLt).2 (ix3 u r l)
      = if r.val = 0 then Cert.Spec.halfSum (V c main_arg0) (V c main_arg1) hq l else 0 := by
  have hN : cfg0.N = 32 := N_0
  obtain ⟨n, hn⟩ := t
  dsimp only at h15 hhq ⊢
  obtain ⟨q, rfl⟩ : ∃ q, n = 16 * q + 15 := ⟨n / 16, by omega⟩
  have hqv : hq.val = q := by omega
  refine (outs_fold V c q 15 (by omega) hn (ix3 u r l)).trans ?_
  show (0 : EReal) + ∑ s ∈ Finset.range 16, addend V c (16 * q + s) (ix3 u r l) = _
  rw [zero_add]
  by_cases hr : r.val = 0
  · rw [if_pos hr, Finset.sum_range]
    unfold Cert.Spec.halfSum
    refine Finset.sum_congr rfl fun s _ => ?_
    have hs : 16 * q + s.val < cfg0.N := by have := s.isLt; omega
    unfold addend
    rw [dif_pos hs, rowAdd_ix3, if_pos hr]
    exact colSum_iblk V c ⟨16 * q + s.val, hs⟩ (Cert.Spec.blockOf hq s)
      (by show 16 * hq.val + s.val = 16 * q + s.val; rw [hqv]) l
  · rw [if_neg hr]
    refine Finset.sum_eq_zero fun s _ => ?_
    unfold addend
    split
    · rw [rowAdd_ix3, if_neg hr]
    · rfl

/-- WHAT A WRITE-BACK WRITES: at a point 16h + 15 the block written back is block h of the array of half sums. -/
theorem flushed_eq (c : Dev nD) (t : Fin cfg0.N) (hf : (cfg0.win 4).flush t = true) :
    (dat0 V c).flushed 4 t = ((cfg0.win 4).blk t).view.read (Elt Ideal) (halves V c) := by
  have hN : cfg0.N = 32 := N_0
  have h15 : t.val % 16 = 15 := (flush0_4 t).mp hf
  obtain ⟨-, -, -, -, e4, e5, e6⟩ := idx_facts t
  show (cfg0.win 4).cut (grid0.coords t) ((dat0 V c).after 4 t) = _
  rw [after0_4]
  funext y
  obtain ⟨u, r, l, rfl⟩ : ∃ (u : Fin 1) (r : Fin 8) (l : Fin 1024), y = ix3 u r l :=
    ⟨y 0, y 1, y 2, eq_ix3 (n0 := 1) (n1 := 8) (n2 := 1024) y⟩
  have hemb : ((cfg0.win 4).blk t).view.emb (ix3 u r l) = ix3 (⟨t.val / 16, by omega⟩ : Fin 2) r l := by
    funext a
    apply Fin.ext
    match a with
    | ⟨0, _⟩ => show win0_4.index t (0 : Fin 3) * 1 + 1 * u.val = t.val / 16; rw [e4]; omega
    | ⟨1, _⟩ => show win0_4.index t (1 : Fin 3) * 8 + 1 * r.val = r.val; rw [e5]; omega
    | ⟨2, _⟩ => show win0_4.index t (2 : Fin 3) * 1024 + 1 * l.val = l.val; rw [e6]; omega
  show (outsAt0 V c t.val t.isLt).2 (ix3 u r l) = halves V c (((cfg0.win 4).blk t).view.emb (ix3 u r l))
  rw [hemb, halves_ix3]
  exact outs_last V c t h15 ⟨t.val / 16, by omega⟩ rfl u r l

end Region

/-- An index of the [2,8,1024] array is in point t's block iff each coordinate is in the block's range on its axis. -/
theorem mem_blk (t : Fin cfg0.N) (i : S2x8x1024.Idx) :
    i ∈ ((cfg0.win 4).blk t).view.set ↔ ∀ a : Fin 3, win0_4.index t a * S1x8x1024.size a ≤ (i a).val
      ∧ (i a).val < win0_4.index t a * S1x8x1024.size a + S1x8x1024.size a := by
  show i ∈ ((View.whole main_v0_1).slice (win0_4.rect t)).set ↔ _
  rw [View.set_slice_whole, Rect.mem_set_unit]
  exact Iff.rfl

/-- THE RESULT: after the run, row 0 of half h of the [2,8,1024] array holds, at lane j, the sum over half h's sixteen
    blocks of 1024 rows of the products of the two argument arrays in column j — the block written back at point
    16h + 15, which covers (h, 0, j). -/
theorem sumOut_apply (m : (ℓ : Loc nD τ sig) → Buf (Elt Ideal) ℓ) (ρ : Dev nD → PrngReg) (c : Dev nD) (h : Fin 2) (j : Fin 1024) :
    (dat0 (V0 m ρ) c).arrAt 4 cfg0.N (ValueIdx.ix3 h (0 : Fin 8) j)
      = Cert.Spec.halfSum (m ((c : Thread nD τ).loc main_arg0)) (m ((c : Thread nD τ).loc main_arg1)) h j := by
  have hN : cfg0.N = 32 := N_0
  have ht : 16 * h.val + 15 < cfg0.N := by have := h.isLt; omega
  have hf : (cfg0.win 4).flush ⟨16 * h.val + 15, ht⟩ = true :=
    (flush0_4 _).mpr (by show (16 * h.val + 15) % 16 = 15; omega)
  obtain ⟨-, -, -, -, e4, e5, e6⟩ := idx_facts ⟨16 * h.val + 15, ht⟩
  have hq : (16 * h.val + 15) / 16 = h.val := by omega
  refine ((dat0 (V0 m ρ) c).arrAt_apply_of_mem 4 (halves (V0 m ρ) c) (flushed_eq (V0 m ρ) c) cfg0.N ⟨16 * h.val + 15, ht⟩
    (ix3 h (0 : Fin 8) j) ht hf ?_).trans ?_
  · rw [mem_blk]
    intro a
    match a with
    | ⟨0, _⟩ =>
      show win0_4.index ⟨16 * h.val + 15, ht⟩ (0 : Fin 3) * 1 ≤ h.val ∧ h.val < win0_4.index ⟨16 * h.val + 15, ht⟩ (0 : Fin 3) * 1 + 1
      rw [e4]; dsimp only; omega
    | ⟨1, _⟩ =>
      show win0_4.index ⟨16 * h.val + 15, ht⟩ (1 : Fin 3) * 8 ≤ 0 ∧ 0 < win0_4.index ⟨16 * h.val + 15, ht⟩ (1 : Fin 3) * 8 + 8
      rw [e5]; omega
    | ⟨2, _⟩ =>
      show win0_4.index ⟨16 * h.val + 15, ht⟩ (2 : Fin 3) * 1024 ≤ j.val ∧ j.val < win0_4.index ⟨16 * h.val + 15, ht⟩ (2 : Fin 3) * 1024 + 1024
      rw [e6]; omega
  · exact (halves_ix3 (V0 m ρ) c h 0 j).trans (if_pos rfl)

end Cert.KernelIdeal.SumValue

end
-- ==== Proof.RefValue.lean ====
/-
  The reference side: the reference program's result, read stage by stage at an index, is the specification.

  At row r and column c the reference computes

      tanh ( ( (0 + Σ_{j<1024} W[c,j] · ((0 + Σ_{r'<32768} e1[r',j]·e2[r',j]) / 32768)) / 1024
               + Σ_{k<2048} [e1|e2][r,k]·V[k,c] ) + b[c] )

  and the specification is tanh ( ff r c + (diag c + b c) ). What joins them: 0 + x = x; a division by the real
  32768 or 1024 is the product with its reciprocal on every extended real; the sum over the 2048 contracted
  positions is the sum over the first 1024 (where [e1|e2] is e1) plus the sum over the last 1024 (where it is e2);
  the sum over all 32768 rows is the sum over the upper half plus the sum over the lower half, each sixteen blocks of
  1024 rows; and (diag + ff) + b = ff + (diag + b) by commutativity and associativity of the sum.
-/
import proofs.«108113_j52321291600495_2_alg».proof.Proof.Gen.ReferenceIdeal.Read
import proofs.«108113_j52321291600495_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx

/-! ## Sums over the rows and over the contraction, regrouped -/

/-- A row is its block of 1024 rows and its place in the block. -/
def rowEquiv : Fin 32 × Fin 1024 ≃ Fin 32768 where
  toFun p := Cert.Spec.rowOf p.1 p.2
  invFun k := (⟨k.val / 1024, by have := k.isLt; omega⟩, ⟨k.val % 1024, by omega⟩)
  left_inv p := by
    rcases p with ⟨⟨a, ha⟩, ⟨b, hb⟩⟩
    refine Prod.ext (Fin.ext ?_) (Fin.ext ?_)
    · show (1024 * a + b) / 1024 = a
      omega
    · show (1024 * a + b) % 1024 = b
      omega
  right_inv k := by
    refine Fin.ext ?_
    show 1024 * (k.val / 1024) + k.val % 1024 = k.val
    omega

/-- A block is its half and its place among the sixteen blocks of the half. -/
def blockEquiv : Fin 2 × Fin 16 ≃ Fin 32 where
  toFun p := Cert.Spec.blockOf p.1 p.2
  invFun n := (⟨n.val / 16, by have := n.isLt; omega⟩, ⟨n.val % 16, by omega⟩)
  left_inv p := by
    rcases p with ⟨⟨a, ha⟩, ⟨b, hb⟩⟩
    refine Prod.ext (Fin.ext ?_) (Fin.ext ?_)
    · show (16 * a + b) / 16 = a
      omega
    · show (16 * a + b) % 16 = b
      omega
  right_inv n := by
    refine Fin.ext ?_
    show 16 * (n.val / 16) + n.val % 16 = n.val
    omega

/-- A sum over all 32768 rows is the sum over the upper half plus the sum over the lower half, each taken sixteen
    blocks of 1024 rows at a time. -/
theorem sum_rows_eq_halves (g : Fin 32768 → EReal) :
    ∑ r : Fin 32768, g r
      = (∑ s : Fin 16, ∑ r : Fin 1024, g (Cert.Spec.rowOf (Cert.Spec.blockOf 0 s) r))
        + ∑ s : Fin 16, ∑ r : Fin 1024, g (Cert.Spec.rowOf (Cert.Spec.blockOf 1 s) r) := by
  have h1 : ∑ r : Fin 32768, g r = ∑ n : Fin 32, ∑ r : Fin 1024, g (Cert.Spec.rowOf n r) := by
    rw [← Equiv.sum_comp rowEquiv g, Fintype.sum_prod_type]
    rfl
  have h2 : ∑ n : Fin 32, ∑ r : Fin 1024, g (Cert.Spec.rowOf n r)
      = ∑ h : Fin 2, ∑ s : Fin 16, ∑ r : Fin 1024, g (Cert.Spec.rowOf (Cert.Spec.blockOf h s) r) := by
    rw [← Equiv.sum_comp blockEquiv (fun n => ∑ r : Fin 1024, g (Cert.Spec.rowOf n r)), Fintype.sum_prod_type]
    rfl
  rw [h1, h2, Fin.sum_univ_two]

/-- A sum over the 2048 contracted positions is the sum over the first 1024 plus the sum over the last 1024. -/
theorem sum_contr_eq_halves (f : Fin 2048 → EReal) :
    ∑ k : Fin 2048, f k = (∑ k : Fin 1024, f (Cert.Spec.lowRow k)) + ∑ k : Fin 1024, f (Cert.Spec.highRow k) :=
  Fin.sum_univ_add (a := 1024) (b := 1024) f

/-- The column sum over all rows is the two half sums. -/
theorem colSum_eq_halves (e1 e2 : FVec Ideal ⟨2, ![32768, 1024]⟩ .f32) (j : Fin 1024) :
    Cert.Spec.colSum e1 e2 j = Cert.Spec.halfSum e1 e2 0 j + Cert.Spec.halfSum e1 e2 1 j :=
  sum_rows_eq_halves fun r => e1 (ix2 r j) * e2 (ix2 r j)

/-! ## The reference, stage by stage, at an index -/

open Cert.ReferenceIdeal Cert.ReferenceIdeal.Read

section Stages

variable (x0 x1 : FVec Ideal S32768x1024 .f32) (x2 : FVec Ideal S128x1024 .f32)
  (x3 : FVec Ideal S2048x128 .f32) (x4 : FVec Ideal S128 .f32)

/-- The joined array [e1 | e2] in one of its first 1024 columns is e1. -/
theorem v0_low (r : Fin 32768) (k : Fin 1024) :
    val_main_v0 (F := Ideal) x0 x1 (ix2 r (Cert.Spec.lowRow k)) = x0 (ix2 r k) := by
  unfold val_main_v0
  exact concatenate_pair_apply_left _ x0 x1 _ (ix2 r (Cert.Spec.lowRow k)) rfl (ix2 r k)
    (fun b => match b with | ⟨0, _⟩ => rfl | ⟨1, _⟩ => rfl)

/-- The joined array [e1 | e2] in column 1024 + k is e2 in column k. -/
theorem v0_high (r : Fin 32768) (k : Fin 1024) :
    val_main_v0 (F := Ideal) x0 x1 (ix2 r (Cert.Spec.highRow k)) = x1 (ix2 r k) := by
  unfold val_main_v0
  exact concatenate_pair_apply_right _ x0 x1 _ (ix2 r (Cert.Spec.highRow k)) rfl rfl (ix2 r k)
    (fun b hb => match b, hb with
      | ⟨0, _⟩, _ => rfl
      | ⟨1, _⟩, hb => absurd rfl hb)
    (by show k.val + 1024 = 1024 + k.val; omega)

/-- The contraction of row r of [e1 | e2] against column c of V, its two halves apart. -/
theorem v1_at (r : Fin 32768) (c : Fin 128) :
    val_main_v1 (F := Ideal) x0 x1 x3 (ix2 r c) = Cert.Spec.ffAt x0 x1 x3 r c := by
  rw [val_main_v1_apply, sum_contr_eq_halves]
  unfold Cert.Spec.ffAt
  congr 1
  · refine Finset.sum_congr rfl fun k _ => ?_
    have el : lidx_main_v1 (ix2 r c) (Cert.Spec.lowRow k) = ix2 r (Cert.Spec.lowRow k) :=
      funext fun a => Fin.ext (by match a with | ⟨0, _⟩ => rfl | ⟨1, _⟩ => rfl)
    have er : ridx_main_v1 (ix2 r c) (Cert.Spec.lowRow k) = ix2 (Cert.Spec.lowRow k) c :=
      funext fun a => Fin.ext (by match a with | ⟨0, _⟩ => rfl | ⟨1, _⟩ => rfl)
    rw [el, er, v0_low]
  · refine Finset.sum_congr rfl fun k _ => ?_
    have el : lidx_main_v1 (ix2 r c) (Cert.Spec.highRow k) = ix2 r (Cert.Spec.highRow k) :=
      funext fun a => Fin.ext (by match a with | ⟨0, _⟩ => rfl | ⟨1, _⟩ => rfl)
    have er : ridx_main_v1 (ix2 r c) (Cert.Spec.highRow k) = ix2 (Cert.Spec.highRow k) c :=
      funext fun a => Fin.ext (by match a with | ⟨0, _⟩ => rfl | ⟨1, _⟩ => rfl)
    rw [el, er, v0_high]

/-- The sum over all rows of e1·e2 in column j, from 0. -/
theorem v3_at (j : Fin 1024) :
    val_main_v3 (F := Ideal) x0 x1 (ix1 j) = Cert.Spec.colSum x0 x1 j := by
  rw [val_main_v3_apply, val_main_cst_apply, Ideal.ofBits_def, Cert.Spec.ofBits_zero, zero_add]
  unfold Cert.Spec.colSum
  refine Finset.sum_congr rfl fun k _ => ?_
  have e : idx_main_v3 (ix1 j) k = ix2 k j :=
    funext fun a => Fin.ext (by match a with | ⟨0, _⟩ => rfl | ⟨1, _⟩ => rfl)
  rw [e, val_main_v2_apply, Ideal.mulf_def]

/-- That sum divided by 32768: its product with 1/32768. -/
theorem v5_at (j : Fin 1024) :
    val_main_v5 (F := Ideal) x0 x1 (ix1 j) = Cert.Spec.colSum x0 x1 j * ((1 / 32768 : ℝ) : EReal) := by
  rw [val_main_v5_apply, Ideal.hostDivf_def, v3_at, val_main_v4_apply, val_main_cst_0_apply, Ideal.ofBits_def,
    Cert.Spec.ofBits_32768, Ideal.div_coe (by norm_num)]

/-- The same, broadcast over the 128 rows of W. -/
theorem v7_at (c : Fin 128) (j : Fin 1024) :
    val_main_v7 (F := Ideal) x0 x1 (ix2 c j) = Cert.Spec.colSum x0 x1 j * ((1 / 32768 : ℝ) : EReal) := by
  rw [val_main_v7_apply, val_main_v6_apply]
  have e : idx_main_v6 (idx_main_v7 (ix2 c j)) = ix1 j :=
    funext fun a => Fin.ext (by match a with | ⟨0, _⟩ => rfl)
  rw [e, v5_at]

/-- The sum over j of W[c,j] times the mean of column j, from 0. -/
theorem v9_at (c : Fin 128) :
    val_main_v9 (F := Ideal) x0 x1 x2 (ix1 c)
      = ∑ j : Fin 1024, x2 (ix2 c j) * (Cert.Spec.colSum x0 x1 j * ((1 / 32768 : ℝ) : EReal)) := by
  rw [val_main_v9_apply, val_main_cst_1_apply, Ideal.ofBits_def, Cert.Spec.ofBits_zero, zero_add]
  refine Finset.sum_congr rfl fun k _ => ?_
  have e : idx_main_v9 (ix1 c) k = ix2 c k :=
    funext fun a => Fin.ext (by match a with | ⟨0, _⟩ => rfl | ⟨1, _⟩ => rfl)
  rw [e, val_main_v8_apply, Ideal.mulf_def, v7_at]

/-- That sum divided by 1024 is the specification's diagonal term. -/
theorem v11_at (c : Fin 128) :
    val_main_v11 (F := Ideal) x0 x1 x2 (ix1 c) = Cert.Spec.diagAt x0 x1 x2 c := by
  rw [val_main_v11_apply, Ideal.hostDivf_def, v9_at, val_main_v10_apply, val_main_cst_2_apply, Ideal.ofBits_def,
    Cert.Spec.ofBits_1024, Ideal.div_coe (by norm_num)]
  unfold Cert.Spec.diagAt
  refine congrArg (· * ((1 / 1024 : ℝ) : EReal)) (Finset.sum_congr rfl fun j _ => ?_)
  rw [colSum_eq_halves]

/-- The diagonal term broadcast over the rows. -/
theorem v13_at (r : Fin 32768) (c : Fin 128) :
    val_main_v13 (F := Ideal) x0 x1 x2 (ix2 r c) = Cert.Spec.diagAt x0 x1 x2 c := by
  rw [val_main_v13_apply, val_main_v12_apply]
  have e : idx_main_v12 (idx_main_v13 (ix2 r c)) = ix1 c :=
    funext fun a => Fin.ext (by match a with | ⟨0, _⟩ => rfl)
  rw [e, v11_at]

/-- The bias broadcast over the rows. -/
theorem v16_at (r : Fin 32768) (c : Fin 128) :
    val_main_v16 (F := Ideal) x4 (ix2 r c) = x4 (ix1 c) := by
  rw [val_main_v16_apply, val_main_v15_apply]
  exact congrArg x4 (funext fun a => Fin.ext (by match a with | ⟨0, _⟩ => rfl))

end Stages

/-- The reference's result is the specification. -/
theorem ref_eq (x0 x1 : FVec Ideal Cert.ReferenceIdeal.S32768x1024 .f32) (x2 : FVec Ideal Cert.ReferenceIdeal.S128x1024 .f32)
    (x3 : FVec Ideal Cert.ReferenceIdeal.S2048x128 .f32) (x4 : FVec Ideal Cert.ReferenceIdeal.S128 .f32) :
    Cert.ReferenceIdeal.Read.val_main_v18 (F := Ideal) x0 x1 x2 x3 x4 = Cert.Spec.out x0 x1 x2 x3 x4 := by
  funext i
  obtain ⟨r, c, rfl⟩ : ∃ (r : Fin 32768) (c : Fin 128), i = ix2 r c := ⟨i 0, i 1, eq_ix2 i⟩
  rw [Cert.Spec.out_apply, val_main_v18_apply, Ideal.hostUnary_tanh_def, val_main_v17_apply, Ideal.addf_def,
    val_main_v14_apply, Ideal.addf_def, v13_at, v1_at, v16_at]
  -- (diag + ff) + b = ff + (diag + b)
  rw [add_comm (Cert.Spec.diagAt x0 x1 x2 c), add_assoc]

end Cert.ReferenceIdeal.RefValue

end
-- ==== Proof.lean ====
/-
  The kernel computes  tanh( [e1 | e2] · V  +  mean_j( W[·, j] · mean_r( e1[r, j] · e2[r, j] ) )  +  b )  over
  e1, e2 : [32768, 1024], W : [128, 1024], V : [2048, 128], b : [128], in two kernel regions around a stretch of host
  operations, and the reference computes the same with plain array operations.  At the extended reals the two results
  are one function of the five arguments (Proof/Spec.lean):

    • the first region walks the 32 blocks of 1024 rows; at each it writes the block's rows of [e1 | e2] · V as
      two 1024-term sums (Proof/FfValue.lean) and adds the block's column sums of e1·e2 into a row that is reset at
      the first block of each half of the rows and written back after the last (Proof/SumValue.lean);
    • the host operations add the two halves' rows, scale by 2⁻¹⁵ = 1/32768, multiply into W, sum over the 1024
      columns, divide by 1024 and add b (Proof/HostStage.lean, Proof/BiasRow.lean);
    • the second region adds that row to every row of the first region's output and takes tanh (Proof/TanhValue.lean);
    • the reference sums the 2048-term contraction and the 32768 rows whole, and divides by 32768 where the kernel
      multiplies by 2⁻¹⁵ (Proof/RefValue.lean).

  Regrouping the sums and reordering the final additions joins the two sides; no law that fails at an infinity is
  used, so the precondition is not opened.  The three frames are the programs' runs with the results dropped; the
  idealization rewrote nothing, so `preserves` is trivial.
-/
import proofs.«108113_j52321291600495_2_alg».proof.Defs
import proofs.«108113_j52321291600495_2_alg».proof.Proof.Gen.Kernel
import proofs.«108113_j52321291600495_2_alg».proof.Proof.Gen.Kernel.Skeleton
import proofs.«108113_j52321291600495_2_alg».proof.Proof.Gen.Kernel.Launch
import proofs.«108113_j52321291600495_2_alg».proof.Proof.Gen.Kernel.Points
import proofs.«108113_j52321291600495_2_alg».proof.Proof.Gen.Kernel.Frame
import proofs.«108113_j52321291600495_2_alg».proof.Proof.Gen.KernelIdeal
import proofs.«108113_j52321291600495_2_alg».proof.Proof.Gen.KernelIdeal.Skeleton
import proofs.«108113_j52321291600495_2_alg».proof.Proof.Gen.KernelIdeal.Launch
import proofs.«108113_j52321291600495_2_alg».proof.Proof.Gen.KernelIdeal.Points
import proofs.«108113_j52321291600495_2_alg».proof.Proof.Gen.KernelIdeal.Frame
import proofs.«108113_j52321291600495_2_alg».proof.Proof.Gen.ReferenceIdeal
import proofs.«108113_j52321291600495_2_alg».proof.Proof.Gen.ReferenceIdeal.Run
import proofs.«108113_j52321291600495_2_alg».proof.Proof.Gen.ReferenceIdeal.Read
import proofs.«108113_j52321291600495_2_alg».proof.Proof.Gen.Pre_finite_inputs
import proofs.«108113_j52321291600495_2_alg».proof.Proof.Spec
import proofs.«108113_j52321291600495_2_alg».proof.Proof.Run
import proofs.«108113_j52321291600495_2_alg».proof.Proof.KernelValue
import proofs.«108113_j52321291600495_2_alg».proof.Proof.FfValue
import proofs.«108113_j52321291600495_2_alg».proof.Proof.SumValue
import proofs.«108113_j52321291600495_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's function of the arguments in their result arrays. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KV.result_of m ρ c (Cert.KernelIdeal.FfValue.ffOut_apply m ρ c)
        (Cert.KernelIdeal.SumValue.sumOut_apply m ρ c)), (h c).2⟩)
      (Cert.KernelIdeal.KV.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.ReferenceIdeal.RefValue.ref_eq, (hagree c).1, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
